-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S16x10000x256 : Shape := ⟨3, ![16, 10000, 256]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S16x10000x256 : S_.BroadcastsInDim S16x10000x256 (![] : Fin 0 → Fin S16x10000x256.rank)
  reducesTo_S16x10000x256_S_d0_1_2 : S16x10000x256.ReducesTo [0, 1, 2] S_

variable [Facts]

def fn {F : FTy → Type} [FloatOps F] (main_arg0 : FVec F S10000x1 .f32) (main_arg1 : FVec F S16x10000x256 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S16x10000x256 .f32 := Host.absf main_arg1
  let main_cst_0 : FVec F S_ .f32 := constant S_ .f32 0x7F800000#32
  let main_v5 : FVec F S16x10000x256 .f32 := broadcastInDim S16x10000x256 ![] bcast_S_S16x10000x256 main_cst_0
  let main_v6 : IVec S16x10000x256 1 := cmpf .olt main_v4 main_v5
  let main_c_1 : IVec S_ 1 := constantI S_ 1 1#1
  let main_v7 : IVec S_ 1 := (fun x v => Host.reduce IntOp.andi x v reducesTo_S16x10000x256_S_d0_1_2 h_S_) main_v6 main_c_1
  let main_v8 : IVec S_ 1 := andi main_v3 main_v7
  main_v8
-- ==== Kernel.lean ====
abbrev S10000x1 : Shape := ⟨2, ![10000, 1]⟩
abbrev S16x10000x256 : Shape := ⟨3, ![16, 10000, 256]⟩
abbrev S10000x256 : Shape := ⟨2, ![10000, 256]⟩
abbrev S1000x1 : Shape := ⟨2, ![1000, 1]⟩
abbrev S16x1000x256 : Shape := ⟨3, ![16, 1000, 256]⟩
abbrev S1000x256 : Shape := ⟨2, ![1000, 256]⟩
abbrev S1x1000x1 : Shape := ⟨3, ![1, 1000, 1]⟩

abbrev nBuf : Space → Nat
  | .hbm => 3
  | .vmem => 6
  | .smem => 0
  | _ => 0

abbrev bufTy : (tb : Table) → Fin (tcTables nBuf tb) → BufTy
  | .hbm, ⟨0, _⟩ => ⟨S10000x1, .f32⟩
  | .hbm, ⟨1, _⟩ => ⟨S16x10000x256, .f32⟩
  | .hbm, ⟨2, _⟩ => ⟨S10000x256, .f32⟩
  | .local _ .vmem, ⟨0, _⟩ => ⟨S1000x1, .f32⟩
  | .local _ .vmem, ⟨1, _⟩ => ⟨S1000x1, .f32⟩
  | .local _ .vmem, ⟨2, _⟩ => ⟨S16x1000x256, .f32⟩
  | .local _ .vmem, ⟨3, _⟩ => ⟨S16x1000x256, .f32⟩
  | .local _ .vmem, ⟨4, _⟩ => ⟨S1000x256, .f32⟩
  | .local _ .vmem, ⟨5, _⟩ => ⟨S1000x256, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1000x1_S1000x1_0_0 : ∀ a, (![0, 0] : Fin 2 → Nat) a + S1000x1.size a ≤ S1000x1.size a
  h_S1000x1 : 0 < S1000x1.numel
  shapeCasts_S1000x1_S1x1000x1 : S1000x1.ShapeCasts S1x1000x1
  reduces_S1x1000x1_S1000x1 : S1x1000x1.Reduces [0] S1000x1
  shapeCasts_S1x1000x1_S1000x1 : S1x1000x1.ShapeCasts S1000x1
  inb_S16x1000x256_S16x1000x256_0_0_0 : ∀ a, (![0, 0, 0] : Fin 3 → Nat) a + S16x1000x256.size a ≤ S16x1000x256.size a
  h_S16x1000x256 : 0 < S16x1000x256.numel
  reduces_S16x1000x256_S1000x256 : S16x1000x256.Reduces [0] S1000x256
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S10000x1.size a
  hwx0_0 : ∀ i : grid0.Coords, EltTy.bits .f32 = 32 ∨ (Rect.block (s := S10000x1) S1000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1000x256.size a ≤ S16x10000x256.size a
  hwx0_1 : ∀ i : grid0.Coords, EltTy.bits .f32 = 32 ∨ (Rect.block (s := S16x10000x256) S16x1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)

variable [Facts₀]

abbrev win0_0 : Pipeline.Window sig grid0 :=
  Pipeline.Window.ofSpec (Memref.whole main_arg0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x1 : Shape := ⟨2, ![10000, 1]⟩
abbrev S16x10000x256 : Shape := ⟨3, ![16, 10000, 256]⟩
abbrev S1x10000x1 : Shape := ⟨3, ![1, 10000, 1]⟩
abbrev S_ : Shape := ⟨0, ![]⟩
abbrev S10000x256 : Shape := ⟨2, ![10000, 256]⟩

abbrev nBuf : Space → Nat
  | .hbm => 19
  | .vmem => 0
  | .smem => 0
  | _ => 0

abbrev bufTy : (tb : Table) → Fin (tcTables nBuf tb) → BufTy
  | .hbm, ⟨0, _⟩ => ⟨S10000x1, .f32⟩
  | .hbm, ⟨1, _⟩ => ⟨S16x10000x256, .f32⟩
  | .hbm, ⟨2, _⟩ => ⟨S1x10000x1, .f32⟩
  | .hbm, ⟨3, _⟩ => ⟨S_, .f32⟩
  | .hbm, ⟨4, _⟩ => ⟨S10000x1, .f32⟩
  | .hbm, ⟨5, _⟩ => ⟨S_, .f32⟩
  | .hbm, ⟨6, _⟩ => ⟨S10000x1, .f32⟩
  | .hbm, ⟨7, _⟩ => ⟨S10000x1, .f32⟩
  | .hbm, ⟨8, _⟩ => ⟨S1x10000x1, .f32⟩
  | .hbm, ⟨9, _⟩ => ⟨S1x10000x1, .f32⟩
  | .hbm, ⟨10, _⟩ => ⟨S1x10000x1, .f32⟩
  | .hbm, ⟨11, _⟩ => ⟨S_, .f32⟩
  | .hbm, ⟨12, _⟩ => ⟨S10000x1, .f32⟩
  | .hbm, ⟨13, _⟩ => ⟨S1x10000x1, .f32⟩
  | .hbm, ⟨14, _⟩ => ⟨S1x10000x1, .f32⟩
  | .hbm, ⟨15, _⟩ => ⟨S16x10000x256, .f32⟩
  | .hbm, ⟨16, _⟩ => ⟨S16x10000x256, .f32⟩
  | .hbm, ⟨17, _⟩ => ⟨S_, .f32⟩
  | .hbm, ⟨18, _⟩ => ⟨S10000x256, .f32⟩
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S10000x1_S1x10000x1_1_2 : S10000x1.BroadcastsInDim S1x10000x1 (![1, 2] : Fin 2 → Fin S1x10000x1.rank)
  reducesTo_S1x10000x1_S10000x1_d0 : S1x10000x1.ReducesTo [0] S10000x1
  h_S_ : 0 < S_.numel
  bcast_S_S10000x1 : S_.BroadcastsInDim S10000x1 (![] : Fin 0 → Fin S10000x1.rank)
  bcast_S1x10000x1_S16x10000x256_0_1_2 : S1x10000x1.BroadcastsInDim S16x10000x256 (![0, 1, 2] : Fin 3 → Fin S16x10000x256.rank)
  reducesTo_S16x10000x256_S10000x256_d0 : S16x10000x256.ReducesTo [0] S10000x256

variable [Facts₀]

class Facts : Prop extends Facts₀ where

variable [Facts]
-- ==== Proof.LibSingletonSoftmax.lean ====
/-
  The softmax over ONE element, on the extended reals. Over an axis of extent one, the softmax weight of a score `x` is
  `exp (x - max) / sum`, where `max` is the maximum of the one score `x` taken from minus infinity and `sum` is the sum
  of the one shifted exponential. At a FINITE score `x = r` the maximum is `r`, the shift `r - r` is `0`, its exponential
  is `1`, the sum is `1` and the quotient `1 / 1` is `1`: the weight is `1`. (At an infinite score the shift `x - x` is
  not `0`, which is why finiteness is needed.) With it: a maximum and a sum over an index set of one element, and the
  reading of "the absolute value is below plus infinity" as "is a real number".
-/
import Idealize.ShloMosaic.PureOps.Ideal
import Idealize.ShloMosaic.PureOps.Ideal.Laws

noncomputable section

namespace SingletonSoftmax

open Idealize.ShloMosaic

/-- The f32 word of minus infinity is the bottom of the extended reals. -/
theorem negInf_eq_bot : Ideal.ofBits .f32 0xFF800000#32 = ⊥ := by simp [Ideal.ofBits, Ideal.ieee]

/-- The exponential of a finite score shifted by itself is `1`. -/
theorem exp_sub_self (r : ℝ) : Ideal.exp ((r : EReal) - (r : EReal)) = 1 := by
  rw [← EReal.coe_sub, Ideal.exp_coe, sub_self, Real.exp_zero, EReal.coe_one]

/-- `1 / 1 = 1` for the division of the extended reals. -/
theorem div_one_one : Ideal.div 1 1 = 1 := by
  have h := Ideal.div_coe (y := (1 : ℝ)) one_ne_zero (1 : EReal)
  rw [EReal.coe_one] at h
  rw [h, one_mul, one_div, inv_one, EReal.coe_one]

/-- The maximum of one finite score, taken from minus infinity and then compared with minus infinity once more
    (the two steps a softmax's running maximum makes), is the score. -/
theorem max_single (r : ℝ) : max (⊥ : EReal) (max (r : EReal) ⊥) = r := by
  rw [max_bot_right, max_bot_left]

/-- THE WEIGHT OF A SINGLE FINITE SCORE IS ONE, in the form where the sum of the one shifted exponential starts from
    nothing. -/
theorem weight_single (r : ℝ) :
    Ideal.div (Ideal.exp ((r : EReal) - max (⊥ : EReal) (max (r : EReal) ⊥)))
      (Ideal.exp ((r : EReal) - max (⊥ : EReal) (max (r : EReal) ⊥))) = 1 := by
  rw [max_single, exp_sub_self, div_one_one]

/-- The same in the form where the sum starts from an explicit zero. -/
theorem weight_single_zero (r : ℝ) :
    Ideal.div (Ideal.exp ((r : EReal) - max (⊥ : EReal) (max (r : EReal) ⊥)))
      (0 + Ideal.exp ((r : EReal) - max (⊥ : EReal) (max (r : EReal) ⊥))) = 1 := by
  rw [zero_add, weight_single]

/-- A maximum folded over an index set of one element, from `b`, is that element's value against `b`. -/
theorem fold_max_one {n : Nat} (hn : n = 1) (b : EReal) (f : Fin n → EReal) :
    (Finset.univ : Finset (Fin n)).fold max b f = max (f ⟨0, by omega⟩) b := by
  subst hn
  rw [Finset.univ_unique, Finset.fold_singleton]
  rfl

/-- A sum over an index set of one element is that element's value. -/
theorem sum_one {n : Nat} (hn : n = 1) (f : Fin n → EReal) : ∑ k : Fin n, f k = f ⟨0, by omega⟩ := by
  subst hn
  rw [Finset.univ_unique, Finset.sum_singleton]
  rfl

/-- An extended real whose absolute value `max x (-x)` is below plus infinity is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

end SingletonSoftmax

end
-- ==== Proof.FiniteScores.lean ====
/-
  What the precondition says of the scores. The precondition is the conjunction of two `all`s: every score's absolute
  value is below plus infinity, and every feature's is. An extended real whose absolute value `max x (-x)` is below
  plus infinity is neither infinity, so it is a real number: under the precondition every score is a real.
-/
import proofs.«170693_g33114197852456_cont_9to1_1009_7_alg».proof.Pre_finite_inputs
import proofs.«170693_g33114197852456_cont_9to1_1009_7_alg».proof.Proof.LibSingletonSoftmax
import Idealize.ShloMosaic.Lib.ReduceAll
import Idealize.ShloMosaic.Lib.ValueIdx

noncomputable section

namespace Cert.GatReduce

open Idealize.ShloMosaic SingletonSoftmax

/-- The rank-zero shape has one index. -/
instance : Subsingleton Cert.Pre_finite_inputs.S_.Idx := ⟨fun _ _ => funext fun d => d.elim0⟩

/-- Under the precondition every score is a real number: the first conjunct, read at the score's index. -/
theorem finite_scores [Cert.Pre_finite_inputs.Facts] (a : FVec Ideal Cert.Pre_finite_inputs.S10000x1 .f32)
    (ft : FVec Ideal Cert.Pre_finite_inputs.S16x10000x256 .f32)
    (h : Cert.Pre_finite_inputs.fn (F := Ideal) a ft = fun _ => 1#1) (i : Cert.Pre_finite_inputs.S10000x1.Idx) :
    ∃ r : ℝ, a i = (r : EReal) := by
  have h0 := congrFun h ValueIdx.ix0
  dsimp only [Cert.Pre_finite_inputs.fn] at h0
  obtain ⟨h1, -⟩ := IntOp.andi_eq_one.1 h0
  have h2 := Host.reduce_andi_all _ _ _ _ _ h1 i
  exact real_of_abs_lt_top (a i) h2

end Cert.GatReduce

end
-- ==== Proof.AxisZero.lean ====
/-
  Reductions over a LEADING axis, read at one element on the extended reals.
  A score column `[1000, 1]` is given a leading degree axis of extent one, `[1, 1000, 1]`, and reduced over it: the maximum
  from minus infinity of the one score is that score (against minus infinity), the sum of the one term is that term.
  A feature block `[16, 1000, 256]` summed over its leading axis is, at `(p, q)`, the sum over the sixteen degrees `k` of
  the entries `(k, p, q)`. Put together, the softmax weight a block computes for the row `p` of a FINITE score column
  is `1`.
-/
import Idealize.ShloMosaic.PureOps.Ideal.Laws
import Idealize.ShloMosaic.Lib.ValueIdx
import Idealize.ShloMosaic.Lib.Pipeline.Value
import proofs.«170693_g33114197852456_cont_9to1_1009_7_alg».proof.Proof.LibSingletonSoftmax

noncomputable section

namespace Cert.GatReduce

open Idealize.ShloMosaic Idealize.ShloMosaic.ValueIdx SingletonSoftmax

/-- A block's score column, the same under a leading degree axis of extent one, a block of features and a block of results. -/
abbrev SCol : Shape := ⟨2, ![1000, 1]⟩
abbrev SCol1 : Shape := ⟨3, ![1, 1000, 1]⟩
abbrev SFt : Shape := ⟨3, ![16, 1000, 256]⟩
abbrev SOut : Shape := ⟨2, ![1000, 256]⟩

/-- The index of the column under its leading axis that reduces into `(p, q)`: there is one, `(0, p, q)`. -/
theorem lift_col (h : SCol1.Reduces [0] SCol) (p : Fin 1000) (q : Fin 1) (k : Fin (SCol1.size 0)) :
    h.lift (ix2 p q) k = ix3 (0 : Fin 1) p q :=
  funext fun a => Fin.ext (by
    match a with
    | ⟨0, _⟩ => exact Nat.lt_one_iff.mp k.isLt
    | ⟨1, _⟩ => rfl
    | ⟨2, _⟩ => rfl)

/-- The maximum over the leading axis, from minus infinity, of the one score. -/
theorem maxCol (w : FVec Ideal SCol1 .f32) (h : SCol1.Reduces [0] SCol) (hφ : FKind.Formats .f32)
    (hacc : (0xFF800000#32 : BitVec 32) = 0xFF800000#32) (p : Fin 1000) (q : Fin 1) :
    multiReduction .maximumf [0] SCol w 0xFF800000#32 h hφ hacc (ix2 p q) = max (w (ix3 (0 : Fin 1) p q)) ⊥ := by
  refine (Ideal.multiReduction_maximumf_single w 0xFF800000#32 h hφ hacc (ix2 p q)).trans ?_
  refine (fold_max_one (n := SCol1.size 0) rfl _ _).trans ?_
  exact congrArg₂ max (congrArg w (lift_col h p q _)) negInf_eq_bot

/-- The sum over the leading axis of the one term. -/
theorem sumCol (w : FVec Ideal SCol1 .f32) (h : SCol1.Reduces [0] SCol) (hφ : FKind.Formats .f32)
    (hacc : (0x00000000#32 : BitVec 32) = 0x00000000#32) (p : Fin 1000) (q : Fin 1) :
    multiReduction .add [0] SCol w 0x00000000#32 h hφ hacc (ix2 p q) = w (ix3 (0 : Fin 1) p q) := by
  refine (Ideal.multiReduction_add_single w 0x00000000#32 h hφ hacc (ix2 p q)).trans ?_
  refine (sum_one (n := SCol1.size 0) rfl _).trans ?_
  exact congrArg w (lift_col h p q _)

/-- The sum of a feature block over its sixteen degrees. -/
theorem sumDeg (x : FVec Ideal SFt .f32) (h : SFt.Reduces [0] SOut) (hφ : FKind.Formats .f32)
    (hacc : (0x00000000#32 : BitVec 32) = 0x00000000#32) (p : Fin 1000) (q : Fin 256) :
    multiReduction .add [0] SOut x 0x00000000#32 h hφ hacc (ix2 p q) = ∑ k : Fin 16, x (ix3 k p q) := by
  refine (Ideal.multiReduction_add_single x 0x00000000#32 h hφ hacc (ix2 p q)).trans ?_
  show ∑ k : Fin 16, x (h.lift (ix2 p q) k) = _
  exact Finset.sum_congr rfl fun k _ => congrArg x (funext fun a => Fin.ext (by
    match a with
    | ⟨0, _⟩ => rfl
    | ⟨1, _⟩ => rfl
    | ⟨2, _⟩ => rfl))

/-- The column under its leading axis, read at `(0, p, q)`, is the column at `(p, q)`. -/
theorem cast_col {α : Type} (v : SCol.Idx → α) (h : SCol.ShapeCasts SCol1) (p : Fin 1000) (q : Fin 1) :
    shapeCast SCol1 v h (ix3 (0 : Fin 1) p q) = v (ix2 p q) :=
  shapeCast_apply v h _ _ (by
    rw [Shape.rowMajor_val_two, Shape.rowMajor_val_three]
    show p.val * 1 + q.val = (0 * 1000 + p.val) * 1 + q.val
    omega)

/-- THE WEIGHT A BLOCK COMPUTES FOR A ROW WITH A FINITE SCORE IS ONE: the column's softmax over the leading axis of
    extent one — the maximum from minus infinity, compared with minus infinity again, subtracted, the exponential, the sum
    of the one exponential, the quotient. -/
theorem weightCol (s : FVec Ideal SCol .f32) (hc : SCol.ShapeCasts SCol1) (hr : SCol1.Reduces [0] SCol)
    (hφ : FKind.Formats .f32) (hmax : (0xFF800000#32 : BitVec 32) = 0xFF800000#32)
    (hadd : (0x00000000#32 : BitVec 32) = 0x00000000#32) (p : Fin 1000) (q : Fin 1) (r : ℝ)
    (hfin : s (ix2 p q) = (r : EReal)) :
    FloatOps.divf (FloatOps.exp (FloatOps.subf (s (ix2 p q)) (FloatOps.maximumf (Scalar.ofBits (F := Ideal) .f32 0xFF800000#32)
        ((multiReduction .maximumf [0] SCol (shapeCast SCol1 s hc) 0xFF800000#32 hr hφ hmax) (ix2 p q)))))
      ((multiReduction .add [0] SCol (exp (subf (shapeCast SCol1 s hc) (shapeCast SCol1 (maximumf (broadcast SCol
        (Scalar.ofBits (F := Ideal) .f32 0xFF800000#32)) (multiReduction .maximumf [0] SCol (shapeCast SCol1 s hc) 0xFF800000#32 hr hφ hmax)) hc)))
        0x00000000#32 hr hφ hadd) (ix2 p q)) = 1 := by
  have hM : (multiReduction .maximumf [0] SCol (shapeCast SCol1 s hc) 0xFF800000#32 hr hφ hmax) (ix2 p q) = max (r : EReal) ⊥ := by
    rw [maxCol, cast_col, hfin]
  rw [sumCol]
  show FloatOps.divf (FloatOps.exp (FloatOps.subf (s (ix2 p q)) (FloatOps.maximumf (Scalar.ofBits (F := Ideal) .f32 0xFF800000#32)
        ((multiReduction .maximumf [0] SCol (shapeCast SCol1 s hc) 0xFF800000#32 hr hφ hmax) (ix2 p q)))))
      (FloatOps.exp (FloatOps.subf (shapeCast SCol1 s hc (ix3 (0 : Fin 1) p q)) (shapeCast SCol1 (maximumf (broadcast SCol
        (Scalar.ofBits (F := Ideal) .f32 0xFF800000#32)) (multiReduction .maximumf [0] SCol (shapeCast SCol1 s hc) 0xFF800000#32 hr hφ hmax)) hc
        (ix3 (0 : Fin 1) p q)))) = 1
  rw [cast_col, cast_col]
  show Ideal.div (Ideal.exp (s (ix2 p q) - max (Ideal.ofBits .f32 0xFF800000#32)
        ((multiReduction .maximumf [0] SCol (shapeCast SCol1 s hc) 0xFF800000#32 hr hφ hmax) (ix2 p q))))
      (Ideal.exp (s (ix2 p q) - max (Ideal.ofBits .f32 0xFF800000#32)
        ((multiReduction .maximumf [0] SCol (shapeCast SCol1 s hc) 0xFF800000#32 hr hφ hmax) (ix2 p q)))) = 1
  rw [hM, hfin, negInf_eq_bot]
  exact weight_single r

end Cert.GatReduce

end
-- ==== Proof.KernelBlock.lean ====
/-
  What one grid point leaves in its result block, on the extended reals. The point's block of results is, at `(p, q)`, the sum of
  its feature block over the sixteen degrees at `(p, q)`, times the softmax weight it computes for row `p` of its score
  column. When that score is finite the weight is `1`, and the entry is the plain sum over the degrees.
-/
import proofs.«170693_g33114197852456_cont_9to1_1009_7_alg».proof.Proof.Gen.KernelIdeal.Value
import proofs.«170693_g33114197852456_cont_9to1_1009_7_alg».proof.Proof.AxisZero

noncomputable section

namespace Cert.KernelIdeal.RowSum

open Cert.KernelIdeal Cert.KernelIdeal.Gen Idealize.ShloMosaic Idealize.ShloMosaic.ValueIdx Cert.GatReduce

/-- The entry `(p, q)` of a point's result block, for a feature block `x` and a score column `s` finite at row `p`. -/
theorem block_entry (x : FVec Ideal S16x1000x256 .f32) (s : FVec Ideal S1000x1 .f32) (p : Fin 1000) (q : Fin 256) (r : ℝ)
    (hfin : s (ix2 p (0 : Fin 1)) = (r : EReal)) :
    Value.E2 (F := Ideal) x s (ix2 p q) = ∑ k : Fin 16, x (ix3 k p q) := by
  have i0 : Value.ix2_0 (ix2 p q) = ix2 p q :=
    funext fun a => Fin.ext (by match a with | ⟨0, _⟩ => rfl | ⟨1, _⟩ => rfl)
  have i1 : Value.ix2_1 (ix2 p q) = ix2 p (0 : Fin 1) :=
    funext fun a => Fin.ext (by match a with | ⟨0, _⟩ => rfl | ⟨1, _⟩ => rfl)
  have i2 : Value.ix2_2 (ix2 p q) = ix2 p (0 : Fin 1) :=
    funext fun a => Fin.ext (by match a with | ⟨0, _⟩ => rfl | ⟨1, _⟩ => rfl)
  have i3 : Value.ix2_3 (ix2 p q) = ix2 p (0 : Fin 1) :=
    funext fun a => Fin.ext (by match a with | ⟨0, _⟩ => rfl | ⟨1, _⟩ => rfl)
  dsimp only [Value.E2]
  rw [i0, i1, i2, i3, sumDeg, weightCol s _ _ _ _ _ p 0 r hfin]
  exact mul_one _

end Cert.KernelIdeal.RowSum

end
-- ==== Proof.DegreeSum.lean ====
/-
  The result both programs compute under the precondition: entry `(n, d)` of the result is the sum over the sixteen
  degrees `k` of the features `ft (k, n, d)` — every node's softmax weight over its one score being `1`.
-/
import Idealize.ShloMosaic.PureOps.Ideal
import Idealize.ShloMosaic.Lib.ValueIdx

noncomputable section

namespace Cert.GatReduce

open Idealize.ShloMosaic Idealize.ShloMosaic.ValueIdx

/-- The features `[16, 10000, 256]` summed over the degrees: `[10000, 256]`. -/
def degreeSum (ft : (⟨3, ![16, 10000, 256]⟩ : Shape).Idx → EReal) : (⟨2, ![10000, 256]⟩ : Shape).Idx → EReal :=
  fun i => ∑ k : Fin 16, ft (ix3 k (i 0) (i 1))

end Cert.GatReduce

end
-- ==== Proof.KernelArray.lean ====
/-
  The kernel's result array is the sum over the degrees. The grid has ten points; point `t` reads rows
  `1000 t … 1000 t + 999` of the score column and of every degree's features, and writes the same rows of the result. By
  the block computation, row `p` of point `t`'s block is the sum over the degrees of the features at row `1000 t + p`
  (its score being finite), which is that row of the degree sum; the ten blocks cover the 10000 rows.
-/
import proofs.«170693_g33114197852456_cont_9to1_1009_7_alg».proof.Proof.Gen.KernelIdeal.Value
import proofs.«170693_g33114197852456_cont_9to1_1009_7_alg».proof.Proof.KernelBlock
import proofs.«170693_g33114197852456_cont_9to1_1009_7_alg».proof.Proof.DegreeSum

noncomputable section

namespace Cert.KernelIdeal.RowSum

open Cert.KernelIdeal Cert.KernelIdeal.Gen Idealize.ShloMosaic Idealize.ShloMosaic.TcCoe Idealize.SL.Sem
  Idealize.ShloMosaic.ValueIdx Cert.GatReduce
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- The index maps over the ten points: point `t` takes block row `t` of the scores, of the features (all degrees, all
    feature columns) and of the result. -/
theorem index_maps : ∀ t : Fin cfg0.N, win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

/-- WHAT POINT `t` WRITES BACK is block `t` of the degree sum of the features, the scores being finite. -/
theorem flushed_eq (c : Dev nD) (hfin : ∀ i : S10000x1.Idx, ∃ r : ℝ, V m c main_arg0 i = (r : EReal)) (t : Fin cfg0.N) :
    (dats m 0 c).flushed 2 t = ((cfg0.win 2).blk t).view.read (Elt Ideal) (degreeSum (V m c main_arg1)) := by
  show (cfg0.win 2).cut (grid0.coords t) ((dats m 0 c).after 2 t) = _
  rw [after0_2]
  unfold out0_2
  simp only [View.ld_unit_zero (S := S1000x1) origin2, View.ld_unit_zero (S := S16x1000x256) origin3]
  obtain ⟨e0, e1, e2, e3, e4, e5, e6⟩ := index_maps t
  have ht : t.val < 10 := t.isLt
  funext j
  obtain ⟨p, q, rfl⟩ : ∃ (p : Fin 1000) (q : Fin 256), j = ix2 p q := ⟨j 0, j 1, eq_ix2 j⟩
  obtain ⟨r, hr⟩ := hfin (((cfg0.win 0).blk t).view.emb (ix2 p (0 : Fin 1)))
  refine (Value.canon2_eq (F := Ideal) (iblk m c 1 t) (iblk m c 0 t) (ix2 p q)).trans ?_
  refine (block_entry (iblk m c 1 t) (iblk m c 0 t) p q r hr).trans ?_
  have key : ∀ g : S16x10000x256.Idx → EReal,
      ∑ k : Fin 16, g (((cfg0.win 1).blk t).view.emb (ix3 k p q))
        = ∑ k : Fin 16, g (ix3 k ((((cfg0.win 2).blk t).view.emb (ix2 p q)) 0) ((((cfg0.win 2).blk t).view.emb (ix2 p q)) 1)) := by
    intro g
    refine Finset.sum_congr rfl fun k _ => congrArg g (funext fun a => Fin.ext ?_)
    have hp : p.val < 1000 := p.isLt
    have hq : q.val < 256 := q.isLt
    have hk : k.val < 16 := k.isLt
    match a with
    | ⟨0, _⟩ => show win0_1.index t (0 : Fin 3) * 16 + 1 * k.val = k.val; omega
    | ⟨1, _⟩ => show win0_1.index t (1 : Fin 3) * 1000 + 1 * p.val = win0_2.index t (0 : Fin 2) * 1000 + 1 * p.val; omega
    | ⟨2, _⟩ => show win0_1.index t (2 : Fin 3) * 256 + 1 * q.val = win0_2.index t (1 : Fin 2) * 256 + 1 * q.val; omega
  exact key (V m c main_arg1)

/-- An index of the result is in point `t`'s block iff each coordinate is in the block's range on its axis. -/
theorem mem_blk (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v0).slice (win0_2.rect t)).set ↔ _
  rw [View.set_slice_whole, Rect.mem_set_unit]
  exact Iff.rfl

/-- Every row of the result is in some point's block: row `n` in point `n / 1000`'s. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 10 := N_0
  let t : Fin cfg0.N := ⟨(i 0).val / 1000, by rw [hN]; omega⟩
  obtain ⟨e0, e1, e2, e3, e4, e5, e6⟩ := index_maps t
  have htv : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- THE RESULT ARRAY after the run is the degree sum of the features, the scores being finite. -/
theorem final (c : Dev nD) (hfin : ∀ i : S10000x1.Idx, ∃ r : ℝ, V m c main_arg0 i = (r : EReal)) :
    (dats m 0 c).arrAt 2 cfg0.N = degreeSum (V m c main_arg1) :=
  (dats m 0 c).arrAt_eq_of_cover 2 (degreeSum (V m c main_arg1)) (fun t _ => flushed_eq m c hfin t) cover

/-- The kernel's run with the result array at the degree sum of the features, the arguments unchanged, when on every
    core every score is finite. -/
theorem run (hfin : ∀ (c : Dev nD) (i : S10000x1.Idx), ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v0) = degreeSum (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c)), (h c).2⟩) (Value.run_blocks m ρ)

end Cert.KernelIdeal.RowSum

end
-- ==== Proof.ReferenceSum.lean ====
/-
  The reference's result is the sum over the degrees. The reference gives the score column a leading axis of extent
  one, takes the softmax over that axis — the maximum from minus infinity, compared with minus infinity again, the
  shifted exponential, its sum from zero over the one degree, the quotient —, spreads the weight of node `n` over the
  sixteen degrees and the 256 features, multiplies by the features and sums over the degrees from zero. A finite
  score's weight is `1`, so entry `(n, d)` is `0 + ∑ k, 1 · ft (k, n, d)`, the sum over the degrees.
-/
import proofs.«170693_g33114197852456_cont_9to1_1009_7_alg».proof.Proof.Gen.ReferenceIdeal.Read
import proofs.«170693_g33114197852456_cont_9to1_1009_7_alg».proof.Proof.AxisZero
import proofs.«170693_g33114197852456_cont_9to1_1009_7_alg».proof.Proof.DegreeSum

noncomputable section

namespace Cert.ReferenceIdeal.RowSum

open Cert.ReferenceIdeal Cert.ReferenceIdeal.Gen Cert.ReferenceIdeal.Read Idealize.ShloMosaic Idealize.ShloMosaic.ValueIdx
  Cert.GatReduce SingletonSoftmax

variable (a : FVec Ideal S10000x1 .f32)

/-- The score column under its leading axis, at `(0, n, 0)`, is the score of node `n`. -/
theorem lead_score (n : Fin 10000) : val_main_v0 (F := Ideal) a (ix3 (0 : Fin 1) n (0 : Fin 1)) = a (ix2 n (0 : Fin 1)) := by
  rw [val_main_v0_apply]
  exact congrArg a (funext fun d => Fin.ext (by match d with | ⟨0, _⟩ => rfl | ⟨1, _⟩ => rfl))

/-- The maximum over the leading axis, from minus infinity, of node `n`'s one score. -/
theorem lead_max (n : Fin 10000) :
    val_main_v1 (F := Ideal) a (ix2 n (0 : Fin 1)) = max (a (ix2 n (0 : Fin 1))) ⊥ := by
  unfold val_main_v1
  rw [Host.reduce_eq_fold_single FloatOps.maximumf _ _ reducesTo_S1x10000x1_S10000x1_d0 (by decide) h_S_]
  refine (fold_max_one (n := S1x10000x1.size 0) rfl _ _).trans ?_
  refine congrArg₂ max ?_ negInf_eq_bot
  refine Eq.trans (congrArg (val_main_v0 (F := Ideal) a) ?_) (lead_score a n)
  exact funext fun d => Fin.ext (by match d with | ⟨0, _⟩ => rfl | ⟨1, _⟩ => rfl | ⟨2, _⟩ => rfl)

/-- Node `n`'s shifted exponential. -/
theorem lead_exp (n : Fin 10000) :
    val_main_v6 (F := Ideal) a (ix3 (0 : Fin 1) n (0 : Fin 1))
      = Ideal.exp (a (ix2 n (0 : Fin 1)) - max ⊥ (max (a (ix2 n (0 : Fin 1))) ⊥)) := by
  have e4 : idx_main_v4 (ix3 (0 : Fin 1) n (0 : Fin 1)) = ix2 n (0 : Fin 1) :=
    funext fun d => Fin.ext (by match d with | ⟨0, _⟩ => rfl | ⟨1, _⟩ => rfl)
  rw [val_main_v6_apply, val_main_v5_apply, lead_score, val_main_v4_apply, e4, val_main_v3_apply, val_main_v2_apply,
    val_main_cst_0_apply, lead_max]
  show Ideal.exp (a (ix2 n (0 : Fin 1)) - max (Ideal.ofBits .f32 0xFF800000#32) (max (a (ix2 n (0 : Fin 1))) ⊥)) = _
  rw [negInf_eq_bot]

/-- THE WEIGHT OF A NODE WITH A FINITE SCORE IS ONE. -/
theorem lead_weight (n : Fin 10000) (r : ℝ) (hfin : a (ix2 n (0 : Fin 1)) = (r : EReal)) :
    val_main_v9 (F := Ideal) a (ix3 (0 : Fin 1) n (0 : Fin 1)) = 1 := by
  have e8 : idx_main_v8 (ix3 (0 : Fin 1) n (0 : Fin 1)) = ix2 n (0 : Fin 1) :=
    funext fun d => Fin.ext (by match d with | ⟨0, _⟩ => rfl | ⟨1, _⟩ => rfl)
  have e7 : ∀ k : Fin 1, idx_main_v7 (ix2 n (0 : Fin 1)) k = ix3 (0 : Fin 1) n (0 : Fin 1) := fun k =>
    funext fun d => Fin.ext (by match d with | ⟨0, _⟩ => exact Nat.lt_one_iff.mp k.isLt | ⟨1, _⟩ => rfl | ⟨2, _⟩ => rfl)
  rw [val_main_v9_apply, val_main_v8_apply, e8, val_main_v7_apply, val_main_cst_1_apply]
  simp only [e7, Finset.sum_const, Finset.card_univ, Fintype.card_fin, one_smul]
  rw [lead_exp, hfin]
  show Ideal.div _ (Ideal.ofBits .f32 0x00000000#32 + _) = 1
  rw [Ideal.ofBits_zero_f32]
  exact weight_single_zero r

/-- THE REFERENCE'S RESULT, when every score is finite, is the features summed over the degrees. -/
theorem result_eq (ft : FVec Ideal S16x10000x256 .f32) (hfin : ∀ i : S10000x1.Idx, ∃ r : ℝ, a i = (r : EReal)) :
    val_main_v12 (F := Ideal) a ft = degreeSum ft := by
  funext i
  obtain ⟨n, d, rfl⟩ : ∃ (n : Fin 10000) (d : Fin 256), i = ix2 n d := ⟨i 0, i 1, eq_ix2 i⟩
  obtain ⟨r, hr⟩ := hfin (ix2 n (0 : Fin 1))
  have e10 : ∀ k : Fin 16, idx_main_v10 (idx_main_v12 (ix2 n d) k) = ix3 (0 : Fin 1) n (0 : Fin 1) := fun k =>
    funext fun b => Fin.ext (by match b with | ⟨0, _⟩ => rfl | ⟨1, _⟩ => rfl | ⟨2, _⟩ => rfl)
  have e12 : ∀ k : Fin 16, idx_main_v12 (ix2 n d) k = ix3 k n d := fun k =>
    funext fun b => Fin.ext (by match b with | ⟨0, _⟩ => rfl | ⟨1, _⟩ => rfl | ⟨2, _⟩ => rfl)
  rw [val_main_v12_apply, val_main_cst_2_apply]
  simp only [val_main_v11_apply, val_main_v10_apply, e10, lead_weight a n r hr]
  show Ideal.ofBits .f32 0x00000000#32 + ∑ k : Fin 16, (1 : EReal) * ft (idx_main_v12 (ix2 n d) k) = _
  simp only [Ideal.ofBits_zero_f32, zero_add, one_mul, e12]
  rfl

end Cert.ReferenceIdeal.RowSum

end
-- ==== Proof.lean ====
/-
  A graph-attention reduce over a degree axis: every node `n` has one score `a n`, the attention weight is the softmax
  of the scores over an axis of extent ONE, and the result is the weighted sum over the sixteen degrees `k` of the
  features `ft (k, n, d)`.

  The kernel cuts the 10000 nodes into ten blocks of 1000 rows; for its block it computes the weight column, sums the
  features over the degrees, and multiplies the sum by the weight: `(∑ k, ft (k, n, d)) · w n`. The reference weights
  every feature first and sums then: `0 + ∑ k, w n · ft (k, n, d)`. On the extended reals a product does not distribute
  over a sum in general, but here nothing has to distribute: the softmax over one element of a FINITE score is
  `exp (a n - a n) / exp (a n - a n) = 1 / 1 = 1` (Proof/LibSingletonSoftmax.lean; the precondition makes every score finite,
  Proof/FiniteScores.lean), and `x · 1 = x = 1 · x` for every extended real. So both results are the sum of the features
  over the degrees (Proof/DegreeSum.lean): the kernel's block by block (Proof/AxisZero.lean, Proof/KernelBlock.lean,
  Proof/KernelArray.lean), the reference's operation by operation (Proof/ReferenceSum.lean).

  The three programs run, fault nowhere and leave their arguments as they found them: for the two kernels this is the
  generated frame, for the reference its generated run. The idealization rewrote no operation, so there is nothing to
  preserve.
-/
import proofs.«170693_g33114197852456_cont_9to1_1009_7_alg».proof.Defs
import proofs.«170693_g33114197852456_cont_9to1_1009_7_alg».proof.Proof.Gen.Kernel
import proofs.«170693_g33114197852456_cont_9to1_1009_7_alg».proof.Proof.Gen.Kernel.Skeleton
import proofs.«170693_g33114197852456_cont_9to1_1009_7_alg».proof.Proof.Gen.Kernel.Launch
import proofs.«170693_g33114197852456_cont_9to1_1009_7_alg».proof.Proof.Gen.Kernel.Points
import proofs.«170693_g33114197852456_cont_9to1_1009_7_alg».proof.Proof.Gen.Kernel.Frame
import proofs.«170693_g33114197852456_cont_9to1_1009_7_alg».proof.Proof.Gen.KernelIdeal
import proofs.«170693_g33114197852456_cont_9to1_1009_7_alg».proof.Proof.Gen.KernelIdeal.Skeleton
import proofs.«170693_g33114197852456_cont_9to1_1009_7_alg».proof.Proof.Gen.KernelIdeal.Launch
import proofs.«170693_g33114197852456_cont_9to1_1009_7_alg».proof.Proof.Gen.KernelIdeal.Points
import proofs.«170693_g33114197852456_cont_9to1_1009_7_alg».proof.Proof.Gen.KernelIdeal.Frame
import proofs.«170693_g33114197852456_cont_9to1_1009_7_alg».proof.Proof.Gen.ReferenceIdeal
import proofs.«170693_g33114197852456_cont_9to1_1009_7_alg».proof.Proof.Gen.Pre_finite_inputs
import proofs.«170693_g33114197852456_cont_9to1_1009_7_alg».proof.Proof.Gen.KernelIdeal.Value
import proofs.«170693_g33114197852456_cont_9to1_1009_7_alg».proof.Proof.Gen.ReferenceIdeal.Run
import proofs.«170693_g33114197852456_cont_9to1_1009_7_alg».proof.Proof.Gen.ReferenceIdeal.Read
import proofs.«170693_g33114197852456_cont_9to1_1009_7_alg».proof.Proof.FiniteScores
import proofs.«170693_g33114197852456_cont_9to1_1009_7_alg».proof.Proof.KernelArray
import proofs.«170693_g33114197852456_cont_9to1_1009_7_alg».proof.Proof.ReferenceSum
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the scores and the features, both programs end with the features summed over the
    degrees: every score is finite by the precondition, so every weight is `1`. -/
theorem algebraic : Cert.algebraic_KernelIdeal_ReferenceIdeal := by
  intro m ρ m' ρ' hpre hagree
  have hfin : ∀ (c : Dev Cert.KernelIdeal.nD) (i : Cert.KernelIdeal.S10000x1.Idx),
      ∃ r : ℝ, m ((c.tc : Thread Cert.KernelIdeal.nD Cert.KernelIdeal.τ).loc Cert.KernelIdeal.main_arg0) i = (r : EReal) :=
    fun c i => Cert.GatReduce.finite_scores _ _ (hpre c) i
  refine ⟨fun c => Cert.GatReduce.degreeSum
    (m ((c.tc : Thread Cert.KernelIdeal.nD Cert.KernelIdeal.τ).loc Cert.KernelIdeal.main_arg1)),
    Cert.KernelIdeal.RowSum.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2]
  exact Cert.ReferenceIdeal.RowSum.result_eq _ _ (hfin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
